-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 82
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x128, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x128, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000, .i32⟩
  | .hbm, ⟨63, _⟩ => ⟨S1x800000, .i32⟩
  | .hbm, ⟨64, _⟩ => ⟨S800000, .i32⟩
  | .hbm, ⟨65, _⟩ => ⟨S850000, .i32⟩
  | .hbm, ⟨66, _⟩ => ⟨S1x800000, .i32⟩
  | .hbm, ⟨67, _⟩ => ⟨S800000, .i32⟩
  | .hbm, ⟨68, _⟩ => ⟨S850000, .i32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S50000, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000, .f32⟩
  | .hbm, ⟨94, _⟩ => ⟨S850000, .f32⟩
  | .hbm, ⟨95, _⟩ => ⟨S50000x64, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x64, .f32⟩
  | .hbm, ⟨105, _⟩ => ⟨S850000x1, .f32⟩
  | .hbm, ⟨106, _⟩ => ⟨S850000x64, .f32⟩
  | .hbm, ⟨107, _⟩ => ⟨S850000x64, .f32⟩
  | .hbm, ⟨108, _⟩ => ⟨S_, .f32⟩
  | .hbm, ⟨109, _⟩ => ⟨S50000x64, .f32⟩
  | .hbm, ⟨110, _⟩ => ⟨S850000x1, .i32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_9 : Ref sig .tc := ⟨.hbm, 76, rfl⟩
abbrev main_v57 : Ref sig .tc := ⟨.hbm, 77, rfl⟩
abbrev main_v58 : Ref sig .tc := ⟨.hbm, 78, rfl⟩
abbrev main_c_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_11 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel's run with its result named. The program is six segments in a row: the host operations that build
  the edge lists and the edge weights, the first tiled matrix product, the host operations of the first aggregation, the
  rectifier, the second tiled matrix product, and the host operations of the second aggregation. Every weakly fair
  execution terminates, and at the end the result buffer holds what the fold of those six segments over the launch
  memory leaves there, while the six argument arrays are as launched.
-/
import proofs.«103370_j60447369723924_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the contents
    the last segment boundary assigns it, and each argument array is as launched. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.Spec.lean ====
/-
  A two-layer graph convolution as one function of its six arguments. The edge list e has two rows of 800000 node
  numbers; to each row the numbers 0 … 49999 are appended (one self loop per node), giving 850000 sources and 850000
  targets. The in-degree of a node is the number of targets equal to it, and an edge's weight is the product of the
  inverse square roots of the degrees of its two ends (a negative node number is counted from the end, as array
  indexing does). One aggregation takes a table h with one row per node, and gives node i the sum, over the edges whose
  target is i, of the edge's weight times the row of h at the edge's source, plus a bias row. The network is
  aggregate (x W1) with bias b1, the maximum with zero, then aggregate (· W2) with bias b2. The two matrix products are
  left as parameters: the functions below are stated for any way of computing them.
-/
import proofs.«103370_j60447369723924_1_alg».proof.Proof.Gen.KernelIdeal
import proofs.«103370_j60447369723924_1_alg».proof.Proof.Gen.ReferenceIdeal

noncomputable section

namespace Cert.Gcn

open Idealize.ShloMosaic Cert.KernelIdeal Cert.KernelIdeal.Facts₀ Cert.KernelIdeal.Facts

variable {F : FTy → Type} [FloatOps F]

/-- One row of the edge list followed by the node numbers 0 … 49999. -/
def srcOf (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

def dstOf (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A negative node number is counted from the end: 50000 is added to it. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32)))
    (addi s (broadcastInDim S850000 ![] bcast_S_S850000 (constantI S_ 32 50000#32))) s

/-- A list of node numbers as a one-column table of start indices. -/
def colIdx (s : (⟨S850000, .i32⟩ : BufTy).Contents (Elt F)) : (⟨S850000x1, .i32⟩ : BufTy).Contents (Elt F) :=
  broadcastInDim S850000x1 ![0] bcast_S850000_S850000x1_0 s

/-- Each node's in-degree (a one added per edge at the edge's target, from zero), to the power -1/2. -/
def degInvSqrt (e : (⟨S2x800000, .i32⟩ : BufTy).Contents (Elt F)) : (⟨S50000, .f32⟩ : BufTy).Contents (Elt F) :=
  Host.rsqrt (Host.scatterAdd scatter_S50000_S850000x1_S850000_n_0_0_1
    (broadcastInDim S50000 ![] bcast_S_S50000 (constant S_ .f32 0x00000000#32)) (colIdx (dstOf e))
    (broadcastInDim S850000 ![] bcast_S_S850000 (constant S_ .f32 0x3F800000#32)))

/-- An edge's weight: the product of the two ends' inverse square root degrees. -/
def edgeNorm (e : (⟨S2x800000, .i32⟩ : BufTy).Contents (Elt F)) : (⟨S850000, .f32⟩ : BufTy).Contents (Elt F) :=
  mulf (Host.gather gather_S50000_S850000x1_S850000_n_0_n_n_0_1_1 (degInvSqrt e) (colIdx (wrapIdx (srcOf e))))
    (Host.gather gather_S50000_S850000x1_S850000_n_0_n_n_0_1_1 (degInvSqrt e) (colIdx (wrapIdx (dstOf e))))

/-- The aggregation of a table of 128 columns: node i gets the sum over the edges into i of weight times the source's
    row, plus the bias row. -/
def agg128 (h : (⟨S50000x128, .f32⟩ : BufTy).Contents (Elt F)) (s d : (⟨S850000, .i32⟩ : BufTy).Contents (Elt F)) (n : (⟨S850000, .f32⟩ : BufTy).Contents (Elt F))
    (b : (⟨S128, .f32⟩ : BufTy).Contents (Elt F)) : (⟨S50000x128, .f32⟩ : BufTy).Contents (Elt F) :=
  addf (Host.scatterAdd scatter_S50000x128_S850000x1_S850000x128_1_0_0_1
      (broadcastInDim S50000x128 ![] bcast_S_S50000x128 (constant S_ .f32 0x00000000#32)) (colIdx d)
      (mulf (Host.gather gather_S50000x128_S850000x1_S850000x128_1_0_n_n_0_1_1128 h (colIdx (wrapIdx s)))
        (broadcastInDim S850000x128 ![0, 1] bcast_S850000x1_S850000x128_0_1 (broadcastInDim S850000x1 ![0] bcast_S850000_S850000x1_0 n))))
    (broadcastInDim S50000x128 ![0, 1] bcast_S1x128_S50000x128_0_1 (broadcastInDim S1x128 ![1] bcast_S128_S1x128_1 b))

/-- The same aggregation of a table of 64 columns. -/
def agg64 (h : (⟨S50000x64, .f32⟩ : BufTy).Contents (Elt F)) (s d : (⟨S850000, .i32⟩ : BufTy).Contents (Elt F)) (n : (⟨S850000, .f32⟩ : BufTy).Contents (Elt F))
    (b : (⟨S64, .f32⟩ : BufTy).Contents (Elt F)) : (⟨S50000x64, .f32⟩ : BufTy).Contents (Elt F) :=
  addf (Host.scatterAdd scatter_S50000x64_S850000x1_S850000x64_1_0_0_1
      (broadcastInDim S50000x64 ![] bcast_S_S50000x64 (constant S_ .f32 0x00000000#32)) (colIdx d)
      (mulf (Host.gather gather_S50000x64_S850000x1_S850000x64_1_0_n_n_0_1_164 h (colIdx (wrapIdx s)))
        (broadcastInDim S850000x64 ![0, 1] bcast_S850000x1_S850000x64_0_1 (broadcastInDim S850000x1 ![0] bcast_S850000_S850000x1_0 n))))
    (broadcastInDim S50000x64 ![0, 1] bcast_S1x64_S50000x64_0_1 (broadcastInDim S1x64 ![1] bcast_S64_S1x64_1 b))

/-- The maximum with zero, entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- The whole first product: entry (p, q) is the sum over k of A (p, k) * W (k, q), at the exact instance. -/
def prod1 (A : (⟨S50000x256, .f32⟩ : BufTy).Contents (Elt F)) (W : (⟨S256x128, .f32⟩ : BufTy).Contents (Elt F)) : (⟨S50000x128, .f32⟩ : BufTy).Contents (Elt F) :=
  Host.dotGeneral Cert.ReferenceIdeal.dot_S50000x256_S256x128_S50000x128_1_0_0_1_n_n none A W

/-- The whole second product. -/
def prod2 (A : (⟨S50000x128, .f32⟩ : BufTy).Contents (Elt F)) (W : (⟨S128x64, .f32⟩ : BufTy).Contents (Elt F)) : (⟨S50000x64, .f32⟩ : BufTy).Contents (Elt F) :=
  Host.dotGeneral Cert.ReferenceIdeal.dot_S50000x128_S128x64_S50000x64_1_0_0_1_n_n none A W

/-- The network, over any two ways `P1`, `P2` of forming the two products. -/
def net (P1 : (⟨S50000x256, .f32⟩ : BufTy).Contents (Elt F) → (⟨S256x128, .f32⟩ : BufTy).Contents (Elt F) → (⟨S50000x128, .f32⟩ : BufTy).Contents (Elt F))
    (P2 : (⟨S50000x128, .f32⟩ : BufTy).Contents (Elt F) → (⟨S128x64, .f32⟩ : BufTy).Contents (Elt F) → (⟨S50000x64, .f32⟩ : BufTy).Contents (Elt F))
    (x : (⟨S50000x256, .f32⟩ : BufTy).Contents (Elt F)) (e : (⟨S2x800000, .i32⟩ : BufTy).Contents (Elt F)) (w1 : (⟨S256x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S50000x64, .f32⟩ : BufTy).Contents (Elt F) :=
  agg64 (P2 (relu (agg128 (P1 x w1) (srcOf e) (dstOf e) (edgeNorm e) b1)) w2) (srcOf e) (dstOf e) (edgeNorm e) b2

end Cert.Gcn

end
-- ==== Proof.KHost0.lean ====
/-
  What the first stretch of host operations leaves, before the first product: the buffer of source endpoints holds row 0
  of the edge list followed by the node numbers, the buffer of target endpoints row 1 followed by the node numbers, the
  buffer of edge weights the products of the ends' inverse square root degrees, and the argument arrays are untouched.
-/
import proofs.«103370_j60447369723924_1_alg».proof.Proof.Gen.KernelIdeal.Frame
import proofs.«103370_j60447369723924_1_alg».proof.Proof.Spec
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option maxHeartbeats 4000000 in
theorem src_1 : W1 m ρ c (Proc.devRef .tc main_v3) = Cert.Gcn.srcOf (m ((c : Thread nD τ).loc main_arg1)) := by
  show StableHlo.after hostOps0 (W0 m ρ c) (Proc.devRef .tc main_v3) = _
  after_results
  rfl

set_option maxHeartbeats 4000000 in
theorem dst_1 : W1 m ρ c (Proc.devRef .tc main_v6) = Cert.Gcn.dstOf (m ((c : Thread nD τ).loc main_arg1)) := by
  show StableHlo.after hostOps0 (W0 m ρ c) (Proc.devRef .tc main_v6) = _
  after_results
  rfl

set_option maxHeartbeats 8000000 in
theorem norm_1 : W1 m ρ c (Proc.devRef .tc main_v26) = Cert.Gcn.edgeNorm (m ((c : Thread nD τ).loc main_arg1)) := by
  show StableHlo.after hostOps0 (W0 m ρ c) (Proc.devRef .tc main_v26) = _
  after_results
  rfl

set_option maxHeartbeats 4000000 in
theorem arg0_1 : W1 m ρ c (Proc.devRef .tc main_arg0) = (m ((c : Thread nD τ).loc main_arg0)) := by
  show StableHlo.after hostOps0 (W0 m ρ c) (Proc.devRef .tc main_arg0) = _
  after_results

set_option maxHeartbeats 4000000 in
theorem arg2_1 : W1 m ρ c (Proc.devRef .tc main_arg2) = (m ((c : Thread nD τ).loc main_arg2)) := by
  show StableHlo.after hostOps0 (W0 m ρ c) (Proc.devRef .tc main_arg2) = _
  after_results

set_option maxHeartbeats 4000000 in
theorem arg3_1 : W1 m ρ c (Proc.devRef .tc main_arg3) = (m ((c : Thread nD τ).loc main_arg3)) := by
  show StableHlo.after hostOps0 (W0 m ρ c) (Proc.devRef .tc main_arg3) = _
  after_results

set_option maxHeartbeats 4000000 in
theorem arg4_1 : W1 m ρ c (Proc.devRef .tc main_arg4) = (m ((c : Thread nD τ).loc main_arg4)) := by
  show StableHlo.after hostOps0 (W0 m ρ c) (Proc.devRef .tc main_arg4) = _
  after_results

set_option maxHeartbeats 4000000 in
theorem arg5_1 : W1 m ρ c (Proc.devRef .tc main_arg5) = (m ((c : Thread nD τ).loc main_arg5)) := by
  show StableHlo.after hostOps0 (W0 m ρ c) (Proc.devRef .tc main_arg5) = _
  after_results

end Cert.KernelIdeal.KValue

end
-- ==== Proof.KKept.lean ====
/-
  What the segments after the first stretch leave alone. The two tiled products write only their own result arrays,
  and the host operations of the aggregations and of the rectifier write only fresh buffers; so the edge lists, the edge
  weights and the argument arrays are found by every later segment as the segment before left them.
-/
import proofs.«103370_j60447369723924_1_alg».proof.Proof.Gen.KernelIdeal.Frame
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem v3_2 : W2 m ρ c (Proc.devRef .tc main_v3) = W1 m ρ c (Proc.devRef .tc main_v3) := W2_of_ne m ρ c main_v3 (by decide)
theorem v6_2 : W2 m ρ c (Proc.devRef .tc main_v6) = W1 m ρ c (Proc.devRef .tc main_v6) := W2_of_ne m ρ c main_v6 (by decide)
theorem v26_2 : W2 m ρ c (Proc.devRef .tc main_v26) = W1 m ρ c (Proc.devRef .tc main_v26) := W2_of_ne m ρ c main_v26 (by decide)
theorem arg3_2 : W2 m ρ c (Proc.devRef .tc main_arg3) = W1 m ρ c (Proc.devRef .tc main_arg3) := W2_of_ne m ρ c main_arg3 (by decide)
theorem arg4_2 : W2 m ρ c (Proc.devRef .tc main_arg4) = W1 m ρ c (Proc.devRef .tc main_arg4) := W2_of_ne m ρ c main_arg4 (by decide)
theorem arg5_2 : W2 m ρ c (Proc.devRef .tc main_arg5) = W1 m ρ c (Proc.devRef .tc main_arg5) := W2_of_ne m ρ c main_arg5 (by decide)
theorem v3_3 : W3 m ρ c (Proc.devRef .tc main_v3) = W2 m ρ c (Proc.devRef .tc main_v3) := by
  show StableHlo.after hostOps1 (W2 m ρ c) (Proc.devRef .tc main_v3) = _
  after_results
theorem v6_3 : W3 m ρ c (Proc.devRef .tc main_v6) = W2 m ρ c (Proc.devRef .tc main_v6) := by
  show StableHlo.after hostOps1 (W2 m ρ c) (Proc.devRef .tc main_v6) = _
  after_results
theorem v26_3 : W3 m ρ c (Proc.devRef .tc main_v26) = W2 m ρ c (Proc.devRef .tc main_v26) := by
  show StableHlo.after hostOps1 (W2 m ρ c) (Proc.devRef .tc main_v26) = _
  after_results
theorem arg4_3 : W3 m ρ c (Proc.devRef .tc main_arg4) = W2 m ρ c (Proc.devRef .tc main_arg4) := by
  show StableHlo.after hostOps1 (W2 m ρ c) (Proc.devRef .tc main_arg4) = _
  after_results
theorem arg5_3 : W3 m ρ c (Proc.devRef .tc main_arg5) = W2 m ρ c (Proc.devRef .tc main_arg5) := by
  show StableHlo.after hostOps1 (W2 m ρ c) (Proc.devRef .tc main_arg5) = _
  after_results
theorem v3_4 : W4 m ρ c (Proc.devRef .tc main_v3) = W3 m ρ c (Proc.devRef .tc main_v3) := by
  show StableHlo.after hostOps1_1 (W3 m ρ c) (Proc.devRef .tc main_v3) = _
  after_results
theorem v6_4 : W4 m ρ c (Proc.devRef .tc main_v6) = W3 m ρ c (Proc.devRef .tc main_v6) := by
  show StableHlo.after hostOps1_1 (W3 m ρ c) (Proc.devRef .tc main_v6) = _
  after_results
theorem v26_4 : W4 m ρ c (Proc.devRef .tc main_v26) = W3 m ρ c (Proc.devRef .tc main_v26) := by
  show StableHlo.after hostOps1_1 (W3 m ρ c) (Proc.devRef .tc main_v26) = _
  after_results
theorem arg4_4 : W4 m ρ c (Proc.devRef .tc main_arg4) = W3 m ρ c (Proc.devRef .tc main_arg4) := by
  show StableHlo.after hostOps1_1 (W3 m ρ c) (Proc.devRef .tc main_arg4) = _
  after_results
theorem arg5_4 : W4 m ρ c (Proc.devRef .tc main_arg5) = W3 m ρ c (Proc.devRef .tc main_arg5) := by
  show StableHlo.after hostOps1_1 (W3 m ρ c) (Proc.devRef .tc main_arg5) = _
  after_results
theorem v3_5 : W5 m ρ c (Proc.devRef .tc main_v3) = W4 m ρ c (Proc.devRef .tc main_v3) := W5_of_ne m ρ c main_v3 (by decide)
theorem v6_5 : W5 m ρ c (Proc.devRef .tc main_v6) = W4 m ρ c (Proc.devRef .tc main_v6) := W5_of_ne m ρ c main_v6 (by decide)
theorem v26_5 : W5 m ρ c (Proc.devRef .tc main_v26) = W4 m ρ c (Proc.devRef .tc main_v26) := W5_of_ne m ρ c main_v26 (by decide)
theorem arg5_5 : W5 m ρ c (Proc.devRef .tc main_arg5) = W4 m ρ c (Proc.devRef .tc main_arg5) := W5_of_ne m ρ c main_arg5 (by decide)

end Cert.KernelIdeal.KValue

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.LibTileDot.lean ====
/-
  A matrix product computed tile by tile along the rows. An entry of a product depends on one row of the left factor
  and one column of the right factor, so if a tile's row agrees with a row of the whole left factor, and the tile's
  right factor agrees with the whole right factor along a column, then the tile's entry in that row and column
  is the whole product's entry. The tile's product is the matrix unit's product into a zero accumulator of operands
  narrowed to a shorter float format (the identity on extended reals); the whole product is the host's general dot
  product. Both are the textbook sum over the contracted coordinate.
-/
import proofs.«103370_j60447369723924_1_alg».proof.Proof.LibDot
import Idealize.ShloMosaic.Lib.ValueIdx
import Idealize.ShloMosaic.PureOps.Ideal.Laws

noncomputable section

open scoped BigOperators

namespace Cert.LibTileDot

open Idealize.ShloMosaic Idealize.ShloMosaic.ValueIdx

variable {B M K N : ℕ}

/-- Entry `j` of a row tile's product is entry `i` of the whole product when row `j 0` of the tile is row `i 0` of the
    whole left factor and column `j 1` of the tile's right factor is column `i 1` of the whole right factor. -/
theorem tile_entry (Dk : DotDims ⟨2, ![B, K]⟩ ⟨2, ![K, N]⟩ ⟨2, ![B, N]⟩) (hk : Cert.LibDot.IsPlain Dk)
    (D : DotDims ⟨2, ![M, K]⟩ ⟨2, ![K, N]⟩ ⟨2, ![M, N]⟩) (hD : Cert.LibDot.IsPlain D)
    (A : FVec Ideal ⟨2, ![M, K]⟩ .f32) (W : FVec Ideal ⟨2, ![K, N]⟩ .f32)
    (x0 : FVec Ideal ⟨2, ![B, K]⟩ .f32) (x1 : FVec Ideal ⟨2, ![K, N]⟩ .f32)
    (h0 : FTy.bf16.bits < FTy.f32.bits) (h1 : FTy.bf16.bits < FTy.f32.bits)
    (j : (⟨2, ![B, N]⟩ : Shape).Idx) (i : (⟨2, ![M, N]⟩ : Shape).Idx)
    (hrow : ∀ k : Fin K, x0 (ix2 (j 0) k) = A (ix2 (i 0) k))
    (hcol : ∀ k : Fin K, x1 (ix2 k (j 1)) = W (ix2 k (i 1))) :
    matmul Dk none (truncf .bf16 x0 h0) (truncf .bf16 x1 h1) (constant ⟨2, ![B, N]⟩ .f32 0x00000000#32) j
      = Host.dotGeneral D none A W i := by
  rw [eq_ix2 j, eq_ix2 i]
  refine (Cert.LibDot.matmul_zero_apply Dk hk none _ _ (j 0) (j 1)).trans ?_
  refine Eq.trans ?_ (Cert.LibDot.dotGeneral_apply D hD none _ A W (i 0) (i 1)).symm
  exact Finset.sum_congr rfl fun k _ => by
    show x0 (ix2 (j 0) k) * x1 (ix2 k (j 1)) = A (ix2 (i 0) k) * W (ix2 k (i 1))
    rw [hrow k, hcol k]

end Cert.LibTileDot

end
-- ==== Proof.Tile0.lean ====
/-
  The first tiled matrix product as one whole product. The grid has ten points; point t multiplies rows
  5000 t … 5000 t + 4999 of the left factor by the whole right factor and writes rows 5000 t … 5000 t + 4999 of the
  result. An entry of a product depends only on its row of the left factor and its column of the right factor, so each
  written block is the corresponding block of the whole product, and the ten blocks cover every row: whatever the buffers
  hold when the region is entered, the result array ends as the whole product of the two operand arrays.
-/
import proofs.«103370_j60447369723924_1_alg».proof.Proof.Gen.KernelIdeal.Frame
import proofs.«103370_j60447369723924_1_alg».proof.Proof.Spec
import proofs.«103370_j60447369723924_1_alg».proof.Proof.LibTileDot
import Idealize.ShloMosaic.Lib.Pipeline.Value
import Idealize.ShloMosaic.Lib.ValueIdx

set_option maxRecDepth 16384

noncomputable section

namespace Cert.KernelIdeal.Tile0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An entry of a tile's product is an entry of the whole product once the tile's row is a row of the whole left
    factor and the tile's right factor has the whole right factor's column. -/
theorem pay_entry (A : FVec Ideal S50000x256 .f32) (W : FVec Ideal S256x128 .f32)
    (x0 : Vec Ideal S5000x256 .f32) (x1 : Vec Ideal S256x128 .f32) (j : S5000x128.Idx) (i : S50000x128.Idx)
    (hrow : ∀ k : Fin 256, x0 (ix2 (j 0) k) = A (ix2 (i 0) k))
    (hcol : ∀ k : Fin 256, x1 (ix2 k (j 1)) = W (ix2 k (i 1))) :
    k0_pay1 x0 x1 j = Cert.Gcn.prod1 (F := Ideal) A W i := by
  unfold k0_pay1 Cert.Gcn.prod1
  exact Cert.LibTileDot.tile_entry dot_S5000x256_S256x128_S5000x128_1_0_0_1_n_n ⟨rfl, rfl, rfl, rfl, rfl, rfl⟩
    Cert.ReferenceIdeal.dot_S50000x256_S256x128_S50000x128_1_0_0_1_n_n ⟨rfl, rfl, rfl, rfl, rfl, rfl⟩ A W x0 x1 _ _ j i hrow hcol

/-- The block indices over the grid: the left factor's and the result's blocks move down one block of rows per point,
    the right factor's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the operand arrays as the region finds them. -/
theorem flushed_eq (c : Dev nD) (t : Fin cfg0.N) :
    (dat0 V c).flushed 2 t = ((cfg0.win 2).blk t).view.read (Elt Ideal) (Cert.Gcn.prod1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  refine pay_entry (V c main_arg0) (V c main_arg2) (iblk0 V c 0 t) (iblk0 V c 1 t) j (((cfg0.win 2).blk t).view.emb j)
    (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array lies in point t's block exactly when each coordinate lies in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row r of the result lies in the block written at point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The result array after the region: the whole product of the two operand arrays as the region finds them. -/
theorem final (c : Dev nD) : (dat0 V c).arrAt 2 cfg0.N = Cert.Gcn.prod1 (F := Ideal) (V c main_arg0) (V c main_arg2) :=
  (dat0 V c).arrAt_eq_of_cover 2 _ (fun t _ => flushed_eq V c t) cover

end Cert.KernelIdeal.Tile0

end
-- ==== Proof.Tile1.lean ====
/-
  The second tiled matrix product as one whole product. The grid has ten points; point t multiplies rows
  5000 t … 5000 t + 4999 of the left factor by the whole right factor and writes rows 5000 t … 5000 t + 4999 of the
  result. An entry of a product depends only on its row of the left factor and its column of the right factor, so each
  written block is the corresponding block of the whole product, and the ten blocks cover every row: whatever the buffers
  hold when the region is entered, the result array ends as the whole product of the two operand arrays.
-/
import proofs.«103370_j60447369723924_1_alg».proof.Proof.Gen.KernelIdeal.Frame
import proofs.«103370_j60447369723924_1_alg».proof.Proof.Spec
import proofs.«103370_j60447369723924_1_alg».proof.Proof.LibTileDot
import Idealize.ShloMosaic.Lib.Pipeline.Value
import Idealize.ShloMosaic.Lib.ValueIdx

set_option maxRecDepth 16384

noncomputable section

namespace Cert.KernelIdeal.Tile1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An entry of a tile's product is an entry of the whole product once the tile's row is a row of the whole left
    factor and the tile's right factor has the whole right factor's column. -/
theorem pay_entry (A : FVec Ideal S50000x128 .f32) (W : FVec Ideal S128x64 .f32)
    (x0 : Vec Ideal S5000x128 .f32) (x1 : Vec Ideal S128x64 .f32) (j : S5000x64.Idx) (i : S50000x64.Idx)
    (hrow : ∀ k : Fin 128, x0 (ix2 (j 0) k) = A (ix2 (i 0) k))
    (hcol : ∀ k : Fin 128, x1 (ix2 k (j 1)) = W (ix2 k (i 1))) :
    k1_pay1 x0 x1 j = Cert.Gcn.prod2 (F := Ideal) A W i := by
  unfold k1_pay1 Cert.Gcn.prod2
  exact Cert.LibTileDot.tile_entry dot_S5000x128_S128x64_S5000x64_1_0_0_1_n_n ⟨rfl, rfl, rfl, rfl, rfl, rfl⟩
    Cert.ReferenceIdeal.dot_S50000x128_S128x64_S50000x64_1_0_0_1_n_n ⟨rfl, rfl, rfl, rfl, rfl, rfl⟩ A W (shapeCast S5000x128 x0 _) x1 _ _ j i
    (fun k => by rw [shapeCast_self]; exact hrow k) hcol

/-- The block indices over the grid: the left factor's and the result's blocks move down one block of rows per point,
    the right factor's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the operand arrays as the region finds them. -/
theorem flushed_eq (c : Dev nD) (t : Fin cfg1.N) :
    (dat1 V c).flushed 2 t = ((cfg1.win 2).blk t).view.read (Elt Ideal) (Cert.Gcn.prod2 (F := Ideal) (V c main_v44) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  refine pay_entry (V c main_v44) (V c main_arg4) (iblk1 V c 0 t) (iblk1 V c 1 t) j (((cfg1.win 2).blk t).view.emb j)
    (fun k => ?_) (fun k => ?_)
  · show V c main_v44 (((cfg1.win 0).blk t).view.emb (ix2 (j 0) k)) = V c main_v44 (ix2 ((((cfg1.win 2).blk t).view.emb j) 0) k)
    refine congrArg (V c main_v44) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg4 (((cfg1.win 1).blk t).view.emb (ix2 k (j 1))) = V c main_arg4 (ix2 k ((((cfg1.win 2).blk t).view.emb j) 1))
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega

/-- An index of the result array lies in point t's block exactly when each coordinate lies in the block's range. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row r of the result lies in the block written at point r / 5000. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- The result array after the region: the whole product of the two operand arrays as the region finds them. -/
theorem final (c : Dev nD) : (dat1 V c).arrAt 2 cfg1.N = Cert.Gcn.prod2 (F := Ideal) (V c main_v44) (V c main_arg4) :=
  (dat1 V c).arrAt_eq_of_cover 2 _ (fun t _ => flushed_eq V c t) cover

end Cert.KernelIdeal.Tile1

end
-- ==== Proof.LibCallBuf.lean ====
/-
  A value handed to a called function's typed buffer and read back from it is the value: the two transports along the
  buffer's type equation cancel.
-/
import Idealize.ShloMosaic.Lib.StableHlo

noncomputable section

namespace Cert.LibCallBuf

open Idealize.ShloMosaic Idealize.ShloMosaic.StableHlo

/-- Written into a typed reference's buffer and read back, contents are unchanged. -/
theorem ofBuf_toBuf {sig : RefSig} {Val : EltTy → Type} {T : BufTy} (x : TRef sig T) (v : T.Contents Val) :
    x.ofBuf (x.toBuf v) = v := by
  show cast _ (cast _ v) = v
  rw [cast_cast]
  exact cast_eq _ _

end Cert.LibCallBuf

end
-- ==== Proof.KSteps.lean ====
/-
  What each segment after the first stretch computes, from the contents it finds: the first tiled product is the whole
  product; the next stretch is the aggregation of 128 columns; the rectifier is the maximum with zero; the second tiled
  product is the whole product; the last stretch is the aggregation of 64 columns.
-/
import proofs.«103370_j60447369723924_1_alg».proof.Proof.Gen.KernelIdeal.Frame
import proofs.«103370_j60447369723924_1_alg».proof.Proof.Spec
import proofs.«103370_j60447369723924_1_alg».proof.Proof.Tile0
import proofs.«103370_j60447369723924_1_alg».proof.Proof.Tile1
import proofs.«103370_j60447369723924_1_alg».proof.Proof.LibCallBuf
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The first product's array after its region: the whole product of the arrays the region finds. -/
theorem prod1_2 : W2 m ρ c (Proc.devRef .tc main_v27)
    = Cert.Gcn.prod1 (F := Ideal) (W1 m ρ c (Proc.devRef .tc main_arg0)) (W1 m ρ c (Proc.devRef .tc main_arg2)) :=
  (W2_arr m ρ c 2).trans (Cert.KernelIdeal.Tile0.final (V1 m ρ) c)

/-- The first aggregation. -/
theorem agg_3 : W3 m ρ c (Proc.devRef .tc main_v43)
    = Cert.Gcn.agg128 (W2 m ρ c (Proc.devRef .tc main_v27)) (W2 m ρ c (Proc.devRef .tc main_v3)) (W2 m ρ c (Proc.devRef .tc main_v6))
        (W2 m ρ c (Proc.devRef .tc main_v26)) (W2 m ρ c (Proc.devRef .tc main_arg3)) := by
  show StableHlo.after hostOps1 (W2 m ρ c) (Proc.devRef .tc main_v43) = _
  generalize W2 m ρ c = X
  after_results_simp
  rfl

/-- The maximum with zero. -/
theorem relu_4 : W4 m ρ c (Proc.devRef .tc main_v44) = Cert.Gcn.relu (W3 m ρ c (Proc.devRef .tc main_v43)) := by
  show StableHlo.after hostOps1_1 (W3 m ρ c) (Proc.devRef .tc main_v44) = _
  generalize W3 m ρ c = X
  after_results_simp
  simp only [Cert.LibCallBuf.ofBuf_toBuf]
  rfl

/-- The second product's array after its region. -/
theorem prod2_5 : W5 m ρ c (Proc.devRef .tc main_v45)
    = Cert.Gcn.prod2 (F := Ideal) (W4 m ρ c (Proc.devRef .tc main_v44)) (W4 m ρ c (Proc.devRef .tc main_arg4)) :=
  (W5_arr m ρ c 2).trans (Cert.KernelIdeal.Tile1.final (V4 m ρ) c)

/-- The second aggregation. -/
theorem agg_6 : W6 m ρ c (Proc.devRef .tc main_v61)
    = Cert.Gcn.agg64 (W5 m ρ c (Proc.devRef .tc main_v45)) (W5 m ρ c (Proc.devRef .tc main_v3)) (W5 m ρ c (Proc.devRef .tc main_v6))
        (W5 m ρ c (Proc.devRef .tc main_v26)) (W5 m ρ c (Proc.devRef .tc main_arg5)) := by
  show StableHlo.after hostOps2 (W5 m ρ c) (Proc.devRef .tc main_v61) = _
  generalize W5 m ρ c = X
  after_results_simp
  rfl

end Cert.KernelIdeal.KValue

end
-- ==== Proof.KValue.lean ====
/-
  The contents of the result buffer at the end of the idealized kernel's run, followed back through the six segments.
  The last stretch of host operations is the second aggregation of the second product's result; that product, by the
  tiling argument, is the whole product of the rectified first layer and W2; the rectified first layer is the maximum
  with zero of the first aggregation of the first product's result; that product is the whole product of x and W1. The
  edge lists and edge weights are computed once, before the first product, and no later segment writes their buffers or
  the argument arrays, so every later segment finds them as they were. Together: the result is the network with both
  products formed whole.
-/
import proofs.«103370_j60447369723924_1_alg».proof.Proof.Gen.KernelIdeal.Frame
import proofs.«103370_j60447369723924_1_alg».proof.Proof.Spec
import proofs.«103370_j60447369723924_1_alg».proof.Proof.KHost0
import proofs.«103370_j60447369723924_1_alg».proof.Proof.KKept
import proofs.«103370_j60447369723924_1_alg».proof.Proof.KSteps
import Idealize.ShloMosaic.PureOps.Ideal

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The result buffer at the end of the run holds the network of the six argument arrays as launched. -/
theorem result : W6 m ρ c (Proc.devRef .tc main_v61)
    = Cert.Gcn.net Cert.Gcn.prod1 Cert.Gcn.prod2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Cert.Gcn.net
  rw [agg_6, prod2_5, relu_4, agg_3, prod1_2,
    v3_5, v6_5, v26_5, arg5_5, v3_4, v6_4, v26_4, arg4_4, arg5_4, v3_3, v6_3, v26_3, arg4_3, arg5_3,
    v3_2, v6_2, v26_2, arg3_2, arg4_2, arg5_2, src_1, dst_1, norm_1, arg0_1, arg2_1, arg3_1, arg4_1, arg5_1]

end Cert.KernelIdeal.KValue

end
-- ==== Proof.RefValue.lean ====
/-
  The reference's result is the network with both products formed whole. The reference builds the edge lists and the
  edge weights twice, once per layer, from the same edge list by the same operations, so both copies are the same
  functions of the edge list; its two general dot products are the whole products; everything else is the aggregation,
  the bias and the maximum with zero, operation for operation.
-/
import proofs.«103370_j60447369723924_1_alg».proof.Proof.Gen.ReferenceIdeal.Run
import proofs.«103370_j60447369723924_1_alg».proof.Proof.Spec

noncomputable section

namespace Cert.ReferenceIdeal.RefValue

open Idealize.ShloMosaic Idealize.ShloMosaic.TcCoe Idealize.SL.Sem
open Cert.ReferenceIdeal Cert.ReferenceIdeal.Value

variable {F : FTy → Type} [FloatOps F]

set_option maxRecDepth 16384 in
/-- The reference run's result term is the network of the six argument arrays. -/
theorem result_eq (m : (ℓ : Loc nD τ sig) → Buf (Elt F) ℓ) (c : Dev nD) :
    res_main_v88 m c = Cert.Gcn.net Cert.Gcn.prod1 Cert.Gcn.prod2
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v88
  rfl

end Cert.ReferenceIdeal.RefValue

end
-- ==== Proof.lean ====
/-
  The certificate of a two-layer graph convolution whose two dense products run as row-tiled kernels, against the
  reference that forms both products whole. At the exact instance a change of float format is the identity and a
  product accumulated into zero is the textbook sum over the contracted coordinate, so each tiled product — ten blocks
  of 5000 rows, every entry depending on one row of the left factor and one column of the right — is the whole
  product. Everything around the products (the edge lists with their self loops, the degree normalisation, the gather,
  the weighting, the scatter-add, the bias, the maximum with zero) is the same sequence of operations in both programs;
  the reference merely builds the edge lists and weights once per layer instead of once. Hence both results are one
  function of the arguments. The three frames: the two kernel programs' are the generated frame certificates, the
  reference's is its run with the result dropped. The idealization rewrote nothing, so there is nothing to preserve.
-/
import proofs.«103370_j60447369723924_1_alg».proof.Defs
import proofs.«103370_j60447369723924_1_alg».proof.Proof.Gen.Kernel.Frame
import proofs.«103370_j60447369723924_1_alg».proof.Proof.Gen.KernelIdeal.Frame
import proofs.«103370_j60447369723924_1_alg».proof.Proof.Gen.ReferenceIdeal.Run
import proofs.«103370_j60447369723924_1_alg».proof.Proof.Gen.Pre_finite_inputs
import proofs.«103370_j60447369723924_1_alg».proof.Proof.KRun
import proofs.«103370_j60447369723924_1_alg».proof.Proof.KValue
import proofs.«103370_j60447369723924_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the arguments: the kernel's by following its result back through its
    segments, the reference's by reading its run's term; the arguments agree. -/
theorem algebraic : Cert.algebraic_KernelIdeal_ReferenceIdeal := by
  intro m ρ m' ρ' _ hagree
  refine ⟨fun c => Cert.Gcn.net Cert.Gcn.prod1 Cert.Gcn.prod2 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
